-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x64 : Shape := ⟨3, ![8192, 64, 64]⟩
abbrev S8192x8x24 : Shape := ⟨3, ![8192, 8, 24]⟩
abbrev S4288x1858 : Shape := ⟨2, ![4288, 1858]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel
  bcast_S_S8192x8x24 : S_.BroadcastsInDim S8192x8x24 (![] : Fin 0 → Fin S8192x8x24.rank)
  reducesTo_S8192x8x24_S_d0_1_2 : S8192x8x24.ReducesTo [0, 1, 2] S_
  bcast_S_S4288x1858 : S_.BroadcastsInDim S4288x1858 (![] : Fin 0 → Fin S4288x1858.rank)
  reducesTo_S4288x1858_S_d0_1 : S4288x1858.ReducesTo [0, 1] S_

variable [Facts]

def fn {F : FTy → Type} [FloatOps F] (main_arg0 : FVec F S8192x64x64 .f32) (main_arg1 : FVec F S8192x8x24 .f32) (main_arg2 : FVec F S4288x1858 .f32) : IVec S_ 1 :=
  let main_v0 : FVec F S8192x64x64 .f32 := Host.absf main_arg0
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  let main_v4 : FVec F S8192x8x24 .f32 := Host.absf main_arg1
  let main_cst_0 : FVec F S_ .f32 := constant S_ .f32 0x7F800000#32
  let main_v5 : FVec F S8192x8x24 .f32 := broadcastInDim S8192x8x24 ![] bcast_S_S8192x8x24 main_cst_0
  let main_v6 : IVec S8192x8x24 1 := cmpf .olt main_v4 main_v5
  let main_c_1 : IVec S_ 1 := constantI S_ 1 1#1
  let main_v7 : IVec S_ 1 := (fun x v => Host.reduce IntOp.andi x v reducesTo_S8192x8x24_S_d0_1_2 h_S_) main_v6 main_c_1
  let main_v8 : IVec S_ 1 := andi main_v3 main_v7
  let main_v9 : FVec F S4288x1858 .f32 := Host.absf main_arg2
  let main_cst_2 : FVec F S_ .f32 := constant S_ .f32 0x7F800000#32
  let main_v10 : FVec F S4288x1858 .f32 := broadcastInDim S4288x1858 ![] bcast_S_S4288x1858 main_cst_2
  let main_v11 : IVec S4288x1858 1 := cmpf .olt main_v9 main_v10
  let main_c_3 : IVec S_ 1 := constantI S_ 1 1#1
  let main_v12 : IVec S_ 1 := (fun x v => Host.reduce IntOp.andi x v reducesTo_S4288x1858_S_d0_1 h_S_) main_v11 main_c_3
  let main_v13 : IVec S_ 1 := andi main_v8 main_v12
  main_v13
-- ==== Kernel.lean ====
abbrev S8192x64x64 : Shape := ⟨3, ![8192, 64, 64]⟩
abbrev S8192x8x24 : Shape := ⟨3, ![8192, 8, 24]⟩
abbrev S4288x1858 : Shape := ⟨2, ![4288, 1858]⟩
abbrev S8192x4096 : Shape := ⟨2, ![8192, 4096]⟩
abbrev S8192x192 : Shape := ⟨2, ![8192, 192]⟩
abbrev S4096x1858 : Shape := ⟨2, ![4096, 1858]⟩
abbrev S192x1858 : Shape := ⟨2, ![192, 1858]⟩
abbrev S_ : Shape := ⟨0, ![]⟩
abbrev S4096x1920 : Shape := ⟨2, ![4096, 1920]⟩
abbrev S192x1920 : Shape := ⟨2, ![192, 1920]⟩
abbrev S8192x1920 : Shape := ⟨2, ![8192, 1920]⟩
abbrev S256x4096 : Shape := ⟨2, ![256, 4096]⟩
abbrev S256x192 : Shape := ⟨2, ![256, 192]⟩
abbrev S256x1920 : Shape := ⟨2, ![256, 1920]⟩
abbrev S8192x1858 : Shape := ⟨2, ![8192, 1858]⟩

abbrev nBuf : Space → Nat
  | .hbm => 17
  | .vmem => 8
  | .smem => 0
  | _ => 0

abbrev bufTy : (tb : Table) → Fin (tcTables nBuf tb) → BufTy
  | .hbm, ⟨0, _⟩ => ⟨S8192x64x64, .f32⟩
  | .hbm, ⟨1, _⟩ => ⟨S8192x8x24, .f32⟩
  | .hbm, ⟨2, _⟩ => ⟨S4288x1858, .f32⟩
  | .hbm, ⟨3, _⟩ => ⟨S8192x4096, .f32⟩
  | .hbm, ⟨4, _⟩ => ⟨S8192x192, .f32⟩
  | .hbm, ⟨5, _⟩ => ⟨S4096x1858, .f32⟩
  | .hbm, ⟨6, _⟩ => ⟨S4096x1858, .bf16⟩
  | .hbm, ⟨7, _⟩ => ⟨S192x1858, .f32⟩
  | .hbm, ⟨8, _⟩ => ⟨S192x1858, .bf16⟩
  | .hbm, ⟨9, _⟩ => ⟨S_, .i32⟩
  | .hbm, ⟨10, _⟩ => ⟨S_, .bf16⟩
  | .hbm, ⟨11, _⟩ => ⟨S4096x1920, .bf16⟩
  | .hbm, ⟨12, _⟩ => ⟨S_, .i32⟩
  | .hbm, ⟨13, _⟩ => ⟨S_, .bf16⟩
  | .hbm, ⟨14, _⟩ => ⟨S192x1920, .bf16⟩
  | .hbm, ⟨15, _⟩ => ⟨S8192x1920, .f32⟩
  | .hbm, ⟨16, _⟩ => ⟨S8192x1858, .f32⟩
  | .local _ .vmem, ⟨0, _⟩ => ⟨S256x4096, .f32⟩
  | .local _ .vmem, ⟨1, _⟩ => ⟨S256x4096, .f32⟩
  | .local _ .vmem, ⟨2, _⟩ => ⟨S256x192, .f32⟩
  | .local _ .vmem, ⟨3, _⟩ => ⟨S256x192, .f32⟩
  | .local _ .vmem, ⟨4, _⟩ => ⟨S4096x1920, .bf16⟩
  | .local _ .vmem, ⟨5, _⟩ => ⟨S192x1920, .bf16⟩
  | .local _ .vmem, ⟨6, _⟩ => ⟨S256x1920, .f32⟩
  | .local _ .vmem, ⟨7, _⟩ => ⟨S256x1920, .f32⟩
  | _, _ => ⟨S8192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192x64x64_S8192x4096 : S8192x64x64.ShapeCasts S8192x4096
  shapeCasts_S8192x8x24_S8192x192 : S8192x8x24.ShapeCasts S8192x192
  slices_S4288x1858_S4096x1858_0_0 : S4288x1858.Slices ![0, 0] S4096x1858
  bitsLt_bf16_f32 : FTy.bits .bf16 < FTy.bits .f32
  slices_S4288x1858_S192x1858_4096_0 : S4288x1858.Slices ![4096, 0] S192x1858
  pads_S4096x1858_S4096x1920_000_0620 : S4096x1858.Pads (![0, 0] : Fin 2 → Nat) ![0, 62] ![0, 0] S4096x1920
  h_S_ : 0 < S_.numel
  pads_S192x1858_S192x1920_000_0620 : S192x1858.Pads (![0, 0] : Fin 2 → Nat) ![0, 62] ![0, 0] S192x1920
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S4096x1920_S4096x1920_0_0 : ∀ a, (![0, 0] : Fin 2 → Nat) a + S4096x1920.size a ≤ S4096x1920.size a
  h_S4096x1920 : 0 < S4096x1920.numel
  shapeCasts_S4096x1920_S4096x1920 : S4096x1920.ShapeCasts S4096x1920
  inb_S192x1920_S192x1920_0_0 : ∀ a, (![0, 0] : Fin 2 → Nat) a + S192x1920.size a ≤ S192x1920.size a
  h_S192x1920 : 0 < S192x1920.numel
  shapeCasts_S192x1920_S192x1920 : S192x1920.ShapeCasts S192x1920
  inb_S256x1920_S256x1920_0_0 : ∀ a, (![0, 0] : Fin 2 → Nat) a + S256x1920.size a ≤ S256x1920.size a
  h_S256x1920 : 0 < S256x1920.numel
  slices_S8192x1920_S8192x1858_0_0 : S8192x1920.Slices ![0, 0] S8192x1858
  dot_S256x4096_S4096x1920_S256x1920_1_0_0_1_n_n_wf : DotDims.WF S256x4096 S4096x1920 S256x1920 [1] [0] [0] [1] [] []
  dot_S256x192_S192x1920_S256x1920_1_0_0_1_n_n_wf : DotDims.WF S256x192 S192x1920 S256x1920 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x192.size a ≤ S8192x192.size a
  hwx0_1 : ∀ i : grid0.Coords, EltTy.bits .f32 = 32 ∨ (Rect.block (s := S8192x192) S256x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1920.size a ≤ S4096x1920.size a
  hwx0_2 : ∀ i : grid0.Coords, EltTy.bits .bf16 = 32 ∨ (Rect.block (s := S4096x1920) S4096x1920.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x1920.size a ≤ S192x1920.size a
  hwx0_3 : ∀ i : grid0.Coords, EltTy.bits .bf16 = 32 ∨ (Rect.block (s := S192x1920) S192x1920.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1920.size a ≤ S8192x1920.size a
  hwx0_4 : ∀ i : grid0.Coords, EltTy.bits .f32 = 32 ∨ (Rect.block (s := S8192x1920) S256x1920.size (cc0_transform_4 i) (hinb0_4 i)).WholeWords (EltTy.packing .f32)

variable [Facts₀]

def dot_S256x4096_S4096x1920_S256x1920_1_0_0_1_n_n : DotDims S256x4096 S4096x1920 S256x1920 where
  lhsContracting := [1]
  rhsContracting := [0]
  lhsNonContracting := [0]
  rhsNonContracting := [1]
  lhsBatch := []
  rhsBatch := []
  wf := dot_S256x4096_S4096x1920_S256x1920_1_0_0_1_n_n_wf
def dot_S256x192_S192x1920_S256x1920_1_0_0_1_n_n : DotDims S256x192 S192x1920 S256x1920 where
  lhsContracting := [1]
  rhsContracting := [0]
  lhsNonContracting := [0]
  rhsNonContracting := [1]
  lhsBatch := []
  rhsBatch := []
  wf := dot_S256x192_S192x1920_S256x1920_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x1920.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S192x1920.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1920.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64x64 : Shape := ⟨3, ![8192, 64, 64]⟩
abbrev S8192x8x24 : Shape := ⟨3, ![8192, 8, 24]⟩
abbrev S4288x1858 : Shape := ⟨2, ![4288, 1858]⟩
abbrev S8192x4096 : Shape := ⟨2, ![8192, 4096]⟩
abbrev S8192x192 : Shape := ⟨2, ![8192, 192]⟩
abbrev S8192x4288 : Shape := ⟨2, ![8192, 4288]⟩
abbrev S8192x1858 : Shape := ⟨2, ![8192, 1858]⟩

abbrev nBuf : Space → Nat
  | .hbm => 7
  | .vmem => 0
  | .smem => 0
  | _ => 0

abbrev bufTy : (tb : Table) → Fin (tcTables nBuf tb) → BufTy
  | .hbm, ⟨0, _⟩ => ⟨S8192x64x64, .f32⟩
  | .hbm, ⟨1, _⟩ => ⟨S8192x8x24, .f32⟩
  | .hbm, ⟨2, _⟩ => ⟨S4288x1858, .f32⟩
  | .hbm, ⟨3, _⟩ => ⟨S8192x4096, .f32⟩
  | .hbm, ⟨4, _⟩ => ⟨S8192x192, .f32⟩
  | .hbm, ⟨5, _⟩ => ⟨S8192x4288, .f32⟩
  | .hbm, ⟨6, _⟩ => ⟨S8192x1858, .f32⟩
  | _, _ => ⟨S8192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S8192x64x64_S8192x4096 : S8192x64x64.ShapeCasts S8192x4096
  shapeCasts_S8192x8x24_S8192x192 : S8192x8x24.ShapeCasts S8192x192
  concatenates_S8192x4096_S8192x192_S8192x4288_d1 : Shape.Concatenates [S8192x4096, S8192x192] S8192x4288 1
  dot_S8192x4288_S4288x1858_S8192x1858_1_0_0_1_n_n_wf : DotDims.WF S8192x4288 S4288x1858 S8192x1858 [1] [0] [0] [1] [] []

variable [Facts₀]

def dot_S8192x4288_S4288x1858_S8192x1858_1_0_0_1_n_n : DotDims S8192x4288 S4288x1858 S8192x1858 where
  lhsContracting := [1]
  rhsContracting := [0]
  lhsNonContracting := [0]
  rhsNonContracting := [1]
  lhsBatch := []
  rhsBatch := []
  wf := dot_S8192x4288_S4288x1858_S8192x1858_1_0_0_1_n_n_wf

class Facts : Prop extends Facts₀ where

variable [Facts]
-- ==== Proof.Spec.lean ====
/-
  What both programs compute, as one function of three arrays: `a` (8192 × 4096; row r is the r-th 64 × 64 slab of the
  first input written out in row-major order), `b` (8192 × 192; row r is the r-th 8 × 24 slab of the second input
  written out likewise) and the matrix `w` (4288 × 1858).  Entry (r, j) of the result is the contraction of row r of
  `a` with rows 0 … 4095 of column j of `w`, plus the contraction of row r of `b` with rows 4096 … 4287 of that
  column.  The one law used between the two programs is that a sum over the 4288 rows of `w` is the sum over the
  first 4096 plus the sum over the last 192: addition of extended reals is commutative and associative, so this holds
  with no finiteness assumption.
-/
import Idealize.ShloMosaic.PureOps.Ideal
import Idealize.ShloMosaic.Lib.ValueIdx

noncomputable section

namespace Cert.SplitDot

open Idealize.ShloMosaic Idealize.ShloMosaic.ValueIdx

/-- Row `k` of the matrix's upper part (the rows that meet `a`). -/
abbrev upper (k : Fin 4096) : Fin 4288 := ⟨k.val, by omega⟩
/-- Row `k` of the matrix's lower part (the rows that meet `b`): row `4096 + k` of the whole. -/
abbrev lower (k : Fin 192) : Fin 4288 := ⟨4096 + k.val, by omega⟩

/-- Entry (r, j): two contractions added. -/
def entry (a : (⟨2, ![8192, 4096]⟩ : Shape).Idx → EReal) (b : (⟨2, ![8192, 192]⟩ : Shape).Idx → EReal)
    (w : (⟨2, ![4288, 1858]⟩ : Shape).Idx → EReal) (r : Fin 8192) (j : Fin 1858) : EReal :=
  (∑ k : Fin 4096, a (ix2 r k) * w (ix2 (upper k) j)) + ∑ k : Fin 192, b (ix2 r k) * w (ix2 (lower k) j)

/-- The whole result, index by index. -/
def result (a : (⟨2, ![8192, 4096]⟩ : Shape).Idx → EReal) (b : (⟨2, ![8192, 192]⟩ : Shape).Idx → EReal)
    (w : (⟨2, ![4288, 1858]⟩ : Shape).Idx → EReal) : (⟨2, ![8192, 1858]⟩ : Shape).Idx → EReal :=
  fun i => entry a b w (i 0) (i 1)

/-- A sum over all 4288 rows is the sum over the upper 4096 plus the sum over the lower 192. -/
theorem sum_rows {M : Type*} [AddCommMonoid M] (f : Fin 4288 → M) :
    ∑ k : Fin 4288, f k = (∑ k : Fin 4096, f (upper k)) + ∑ k : Fin 192, f (lower k) :=
  Fin.sum_univ_add (a := 4096) (b := 192) f

end Cert.SplitDot

end
-- ==== Proof.RefValue.lean ====
/-
  The reference's result is the split contraction.  The reference joins the two flattened inputs side by side into an
  8192 × 4288 matrix and contracts it with the whole 4288 × 1858 matrix.  Column k < 4096 of the joined matrix is column
  k of the first flattened input, column 4096 + k is column k of the second, so the one sum over 4288 rows, cut at row
  4096, is the two contractions of the specification added.
-/
import proofs.«100245_j91104846283204_2_alg».proof.Proof.Gen.ReferenceIdeal.Read
import proofs.«100245_j91104846283204_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.SplitDot

/-- Column `k < 4096` of the joined matrix is column `k` of its left part. -/
theorem joined_upper (a : (⟨S8192x4096, .f32⟩ : BufTy).Contents (Elt Ideal)) (b : (⟨S8192x192, .f32⟩ : BufTy).Contents (Elt Ideal))
    (i : S8192x1858.Idx) (k : Fin 4096) :
    concatenate S8192x4288 1 [⟨S8192x4096, a⟩, ⟨S8192x192, b⟩] concatenates_S8192x4096_S8192x192_S8192x4288_d1 (lidx_main_v3 i (upper k))
      = a (ix2 (i 0) k) :=
  concatenate_pair_apply_left _ a b concatenates_S8192x4096_S8192x192_S8192x4288_d1 (lidx_main_v3 i (upper k)) rfl (ix2 (i 0) k)
    (fun d => by match d with | ⟨0, _⟩ => rfl | ⟨1, _⟩ => rfl)

/-- Column `4096 + k` of the joined matrix is column `k` of its right part. -/
theorem joined_lower (a : (⟨S8192x4096, .f32⟩ : BufTy).Contents (Elt Ideal)) (b : (⟨S8192x192, .f32⟩ : BufTy).Contents (Elt Ideal))
    (i : S8192x1858.Idx) (k : Fin 192) :
    concatenate S8192x4288 1 [⟨S8192x4096, a⟩, ⟨S8192x192, b⟩] concatenates_S8192x4096_S8192x192_S8192x4288_d1 (lidx_main_v3 i (lower k))
      = b (ix2 (i 0) k) :=
  concatenate_pair_apply_right _ a b concatenates_S8192x4096_S8192x192_S8192x4288_d1 (lidx_main_v3 i (lower k)) rfl rfl (ix2 (i 0) k)
    (fun d hd => by match d with | ⟨0, _⟩ => rfl | ⟨1, _⟩ => exact absurd rfl hd)
    (by show k.val + 4096 = 4096 + k.val; omega)

/-- The reference's result, index by index, is the specification of the two flattened inputs and the matrix. -/
theorem result_eq (x0 : (⟨S8192x64x64, .f32⟩ : BufTy).Contents (Elt Ideal)) (x1 : (⟨S8192x8x24, .f32⟩ : BufTy).Contents (Elt Ideal))
    (x2 : (⟨S4288x1858, .f32⟩ : BufTy).Contents (Elt Ideal)) :
    val_main_v3 (F := Ideal) x0 x1 x2
      = result (shapeCast S8192x4096 x0 shapeCasts_S8192x64x64_S8192x4096) (shapeCast S8192x192 x1 shapeCasts_S8192x8x24_S8192x192) x2 := by
  funext i
  rw [val_main_v3_apply, sum_rows]
  unfold result entry val_main_v2 val_main_v0 val_main_v1
  refine congrArg₂ (· + ·) (Finset.sum_congr rfl fun k _ => ?_) (Finset.sum_congr rfl fun k _ => ?_)
  · refine congrArg₂ (· * ·) (joined_upper _ _ i k) (congrArg x2 (funext fun d => Fin.ext ?_))
    match d with | ⟨0, _⟩ => rfl | ⟨1, _⟩ => rfl
  · refine congrArg₂ (· * ·) (joined_lower _ _ i k) (congrArg x2 (funext fun d => Fin.ext ?_))
    match d with | ⟨0, _⟩ => rfl | ⟨1, _⟩ => rfl

end Cert.ReferenceIdeal.RefValue

end
-- ==== Proof.Payload.lean ====
/-
  The kernel body's one stored value, read at an index.  The body loads a 256 × 4096 block `x0`, a 256 × 192 block
  `x1` and the two resident matrices `x2` (4096 × 1920) and `x3` (192 × 1920), and stores the sum of two matrix
  products, each accumulated into zero.  At the extended reals a change of float format is the identity and a matrix
  product into zero is the plain sum over the contracted axis, so entry (p, q) of the stored value is
  Σ_k x0[p, k] · x2[k, q] + Σ_k x1[p, k] · x3[k, q].
-/
import proofs.«100245_j91104846283204_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-! ## The (256 × 4096) by (4096 × 1920) product: which operand entries meet at output (p, q) and contraction index k -/

theorem dotA_l0 (i : S256x1920.Idx) (q : dot_S256x4096_S4096x1920_S256x1920_1_0_0_1_n_n.contr.Idx) : (dot_S256x4096_S4096x1920_S256x1920_1_0_0_1_n_n.lhsIdx i q 0).val = (i 0).val := by
  unfold DotDims.lhsIdx
  rw [dif_neg (show ¬(0 : Fin S256x4096.rank) ∈ dot_S256x4096_S4096x1920_S256x1920_1_0_0_1_n_n.lhsBatch by decide), dif_pos (show (0 : Fin S256x4096.rank) ∈ dot_S256x4096_S4096x1920_S256x1920_1_0_0_1_n_n.lhsNonContracting by decide)]
  rfl
theorem dotA_l1 (i : S256x1920.Idx) (q : dot_S256x4096_S4096x1920_S256x1920_1_0_0_1_n_n.contr.Idx) : (dot_S256x4096_S4096x1920_S256x1920_1_0_0_1_n_n.lhsIdx i q 1).val = (q ⟨0, by decide⟩).val :=
  dot_S256x4096_S4096x1920_S256x1920_1_0_0_1_n_n.lhsIdx_val_of_single rfl i q
theorem dotA_r0 (i : S256x1920.Idx) (q : dot_S256x4096_S4096x1920_S256x1920_1_0_0_1_n_n.contr.Idx) : (dot_S256x4096_S4096x1920_S256x1920_1_0_0_1_n_n.rhsIdx i q 0).val = (q ⟨0, by decide⟩).val :=
  dot_S256x4096_S4096x1920_S256x1920_1_0_0_1_n_n.rhsIdx_val_of_single rfl i q
theorem dotA_r1 (i : S256x1920.Idx) (q : dot_S256x4096_S4096x1920_S256x1920_1_0_0_1_n_n.contr.Idx) : (dot_S256x4096_S4096x1920_S256x1920_1_0_0_1_n_n.rhsIdx i q 1).val = (i 1).val := by
  unfold DotDims.rhsIdx
  rw [dif_neg (show ¬(1 : Fin S4096x1920.rank) ∈ dot_S256x4096_S4096x1920_S256x1920_1_0_0_1_n_n.rhsBatch by decide), dif_pos (show (1 : Fin S4096x1920.rank) ∈ dot_S256x4096_S4096x1920_S256x1920_1_0_0_1_n_n.rhsNonContracting by decide)]
  rfl

theorem dotA_apply (l : FVec Ideal S256x4096 .bf16) (r : FVec Ideal S4096x1920 .bf16) (p : Fin 256) (q : Fin 1920) :
    FloatOps.matmul dot_S256x4096_S4096x1920_S256x1920_1_0_0_1_n_n none l r (constant S256x1920 .f32 0x00000000#32) (ix2 p q)
      = ∑ k : Fin 4096, l (ix2 p k) * r (ix2 k q) := by
  rw [Ideal.matmul_constant_zero_apply, ← Equiv.sum_comp (contrEquiv1 dot_S256x4096_S4096x1920_S256x1920_1_0_0_1_n_n 4096 rfl rfl).symm]
  refine Finset.sum_congr rfl fun k _ => ?_
  have hk := contrEquiv1_symm_val dot_S256x4096_S4096x1920_S256x1920_1_0_0_1_n_n 4096 rfl rfl k
  have el : dot_S256x4096_S4096x1920_S256x1920_1_0_0_1_n_n.lhsIdx (ix2 p q) ((contrEquiv1 dot_S256x4096_S4096x1920_S256x1920_1_0_0_1_n_n 4096 rfl rfl).symm k) = ix2 p k := funext fun a => Fin.ext (by
    match a with
    | ⟨0, _⟩ => exact dotA_l0 _ _
    | ⟨1, _⟩ => exact (dotA_l1 _ _).trans hk)
  have er : dot_S256x4096_S4096x1920_S256x1920_1_0_0_1_n_n.rhsIdx (ix2 p q) ((contrEquiv1 dot_S256x4096_S4096x1920_S256x1920_1_0_0_1_n_n 4096 rfl rfl).symm k) = ix2 k q := funext fun a => Fin.ext (by
    match a with
    | ⟨0, _⟩ => exact (dotA_r0 _ _).trans hk
    | ⟨1, _⟩ => exact dotA_r1 _ _)
  rw [el, er]

/-! ## The (256 × 192) by (192 × 1920) product -/

theorem dotB_l0 (i : S256x1920.Idx) (q : dot_S256x192_S192x1920_S256x1920_1_0_0_1_n_n.contr.Idx) : (dot_S256x192_S192x1920_S256x1920_1_0_0_1_n_n.lhsIdx i q 0).val = (i 0).val := by
  unfold DotDims.lhsIdx
  rw [dif_neg (show ¬(0 : Fin S256x192.rank) ∈ dot_S256x192_S192x1920_S256x1920_1_0_0_1_n_n.lhsBatch by decide), dif_pos (show (0 : Fin S256x192.rank) ∈ dot_S256x192_S192x1920_S256x1920_1_0_0_1_n_n.lhsNonContracting by decide)]
  rfl
theorem dotB_l1 (i : S256x1920.Idx) (q : dot_S256x192_S192x1920_S256x1920_1_0_0_1_n_n.contr.Idx) : (dot_S256x192_S192x1920_S256x1920_1_0_0_1_n_n.lhsIdx i q 1).val = (q ⟨0, by decide⟩).val :=
  dot_S256x192_S192x1920_S256x1920_1_0_0_1_n_n.lhsIdx_val_of_single rfl i q
theorem dotB_r0 (i : S256x1920.Idx) (q : dot_S256x192_S192x1920_S256x1920_1_0_0_1_n_n.contr.Idx) : (dot_S256x192_S192x1920_S256x1920_1_0_0_1_n_n.rhsIdx i q 0).val = (q ⟨0, by decide⟩).val :=
  dot_S256x192_S192x1920_S256x1920_1_0_0_1_n_n.rhsIdx_val_of_single rfl i q
theorem dotB_r1 (i : S256x1920.Idx) (q : dot_S256x192_S192x1920_S256x1920_1_0_0_1_n_n.contr.Idx) : (dot_S256x192_S192x1920_S256x1920_1_0_0_1_n_n.rhsIdx i q 1).val = (i 1).val := by
  unfold DotDims.rhsIdx
  rw [dif_neg (show ¬(1 : Fin S192x1920.rank) ∈ dot_S256x192_S192x1920_S256x1920_1_0_0_1_n_n.rhsBatch by decide), dif_pos (show (1 : Fin S192x1920.rank) ∈ dot_S256x192_S192x1920_S256x1920_1_0_0_1_n_n.rhsNonContracting by decide)]
  rfl

theorem dotB_apply (l : FVec Ideal S256x192 .bf16) (r : FVec Ideal S192x1920 .bf16) (p : Fin 256) (q : Fin 1920) :
    FloatOps.matmul dot_S256x192_S192x1920_S256x1920_1_0_0_1_n_n none l r (constant S256x1920 .f32 0x00000000#32) (ix2 p q)
      = ∑ k : Fin 192, l (ix2 p k) * r (ix2 k q) := by
  rw [Ideal.matmul_constant_zero_apply, ← Equiv.sum_comp (contrEquiv1 dot_S256x192_S192x1920_S256x1920_1_0_0_1_n_n 192 rfl rfl).symm]
  refine Finset.sum_congr rfl fun k _ => ?_
  have hk := contrEquiv1_symm_val dot_S256x192_S192x1920_S256x1920_1_0_0_1_n_n 192 rfl rfl k
  have el : dot_S256x192_S192x1920_S256x1920_1_0_0_1_n_n.lhsIdx (ix2 p q) ((contrEquiv1 dot_S256x192_S192x1920_S256x1920_1_0_0_1_n_n 192 rfl rfl).symm k) = ix2 p k := funext fun a => Fin.ext (by
    match a with
    | ⟨0, _⟩ => exact dotB_l0 _ _
    | ⟨1, _⟩ => exact (dotB_l1 _ _).trans hk)
  have er : dot_S256x192_S192x1920_S256x1920_1_0_0_1_n_n.rhsIdx (ix2 p q) ((contrEquiv1 dot_S256x192_S192x1920_S256x1920_1_0_0_1_n_n 192 rfl rfl).symm k) = ix2 k q := funext fun a => Fin.ext (by
    match a with
    | ⟨0, _⟩ => exact (dotB_r0 _ _).trans hk
    | ⟨1, _⟩ => exact dotB_r1 _ _)
  rw [el, er]

/-- The stored value at (p, q): the two contractions added. -/
theorem stored_apply (x0 : Vec Ideal S256x4096 .f32) (x1 : Vec Ideal S256x192 .f32) (x2 : Vec Ideal S4096x1920 .bf16)
    (x3 : Vec Ideal S192x1920 .bf16) (p : Fin 256) (q : Fin 1920) :
    k0_pay1 (F := Ideal) x0 x1 x2 x3 (ix2 p q)
      = (∑ k : Fin 4096, x0 (ix2 p k) * x2 (ix2 k q)) + ∑ k : Fin 192, x1 (ix2 p k) * x3 (ix2 k q) := by
  unfold k0_pay1
  simp only [shapeCast_self]
  refine (addf_apply _ _ _).trans ?_
  exact congrArg₂ (· + ·) (dotA_apply _ _ p q) (dotB_apply _ _ p q)

end Cert.KernelIdeal.Body

end
-- ==== Proof.Blocks.lean ====
/-
  From blocks to the array.  The grid has 32 points; point t reads rows 256 t … 256 t + 255 of the two flattened inputs,
  the whole of the two padded matrices, and writes rows 256 t … 256 t + 255 of the 8192 × 1920 output.  Entry (p, q) of
  what point t writes is the two contractions of row 256 t + p of the inputs with column q of the matrices, so every
  block is the restriction of ONE function of the four arrays (`regionOut`), and since row r lies in the block of point
  r / 256 the blocks cover the array: after the run the output array is that function.
-/
import proofs.«100245_j91104846283204_2_alg».proof.Proof.Gen.KernelIdeal.Frame
import proofs.«100245_j91104846283204_2_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-- What the region leaves in its output array, as one function of the four arrays it reads: entry (r, q) is row r of
    the first contracted with column q of the third, plus row r of the second contracted with column q of the fourth. -/
def regionOut (a0 : S8192x4096.Idx → EReal) (a1 : S8192x192.Idx → EReal) (b0 : S4096x1920.Idx → EReal) (b1 : S192x1920.Idx → EReal) :
    S8192x1920.Idx → EReal :=
  fun i => (∑ k : Fin 4096, a0 (ix2 (i 0) k) * b0 (ix2 k (i 1))) + ∑ k : Fin 192, a1 (ix2 (i 0) k) * b1 (ix2 k (i 1))

variable (m : (ℓ : Loc nD τ sig) → Buf (Elt Ideal) ℓ)

theorem zeros : (![0, 0] : Fin 2 → Nat) = fun _ => 0 := funext fun a => by fin_cases a <;> rfl

/-- The block index of each window at point t: the row-blocked windows move with t, the matrices stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 := by
  have h : t.val < cfg0.N := t.isLt
  have e : cfg0.N = 32 := N_0
  omega

/-- Row p of point t's block is row 256 t + p of the array. -/
abbrev row (t : Fin cfg0.N) (p : Fin 256) : Fin 8192 := ⟨256 * t.val + p.val, by have := point_lt t; omega⟩

/-- Point t's block of the first array: rows 256 t … of it. -/
theorem blk0_apply (c : Dev nD) (t : Fin cfg0.N) (p : Fin 256) (k : Fin 4096) :
    (iblk m c 0 t : Vec Ideal S256x4096 .f32) (ix2 p k) = (V m c main_v0 : S8192x4096.Idx → EReal) (ix2 (row t p) k) := by
  obtain ⟨e0, e1, -⟩ := idx_facts t
  show V m c main_v0 (((cfg0.win 0).blk t).view.emb (ix2 p k)) = V m c main_v0 (ix2 (row t p) k)
  refine congrArg (V m c main_v0) (funext fun a => Fin.ext ?_)
  match a with
  | ⟨0, _⟩ => show win0_0.index t (0 : Fin 2) * 256 + 1 * p.val = 256 * t.val + p.val; rw [e0]; omega
  | ⟨1, _⟩ => show win0_0.index t (1 : Fin 2) * 4096 + 1 * k.val = k.val; rw [e1]; omega

/-- Point t's block of the second array: rows 256 t … of it. -/
theorem blk1_apply (c : Dev nD) (t : Fin cfg0.N) (p : Fin 256) (k : Fin 192) :
    (iblk m c 1 t : Vec Ideal S256x192 .f32) (ix2 p k) = (V m c main_v1 : S8192x192.Idx → EReal) (ix2 (row t p) k) := by
  obtain ⟨-, -, e2, e3, -⟩ := idx_facts t
  show V m c main_v1 (((cfg0.win 1).blk t).view.emb (ix2 p k)) = V m c main_v1 (ix2 (row t p) k)
  refine congrArg (V m c main_v1) (funext fun a => Fin.ext ?_)
  match a with
  | ⟨0, _⟩ => show win0_1.index t (0 : Fin 2) * 256 + 1 * p.val = 256 * t.val + p.val; rw [e2]; omega
  | ⟨1, _⟩ => show win0_1.index t (1 : Fin 2) * 192 + 1 * k.val = k.val; rw [e3]; omega

/-- Every point's block of the third array is the whole of it. -/
theorem blk2_apply (c : Dev nD) (t : Fin cfg0.N) (k : Fin 4096) (q : Fin 1920) :
    (iblk m c 2 t : Vec Ideal S4096x1920 .bf16) (ix2 k q) = (V m c main_v6 : S4096x1920.Idx → EReal) (ix2 k q) := by
  obtain ⟨-, -, -, -, e4, e5, -⟩ := idx_facts t
  show V m c main_v6 (((cfg0.win 2).blk t).view.emb (ix2 k q)) = V m c main_v6 (ix2 k q)
  refine congrArg (V m c main_v6) (funext fun a => Fin.ext ?_)
  match a with
  | ⟨0, _⟩ => show win0_2.index t (0 : Fin 2) * 4096 + 1 * k.val = k.val; rw [e4]; omega
  | ⟨1, _⟩ => show win0_2.index t (1 : Fin 2) * 1920 + 1 * q.val = q.val; rw [e5]; omega

/-- Every point's block of the fourth array is the whole of it. -/
theorem blk3_apply (c : Dev nD) (t : Fin cfg0.N) (k : Fin 192) (q : Fin 1920) :
    (iblk m c 3 t : Vec Ideal S192x1920 .bf16) (ix2 k q) = (V m c main_v7 : S192x1920.Idx → EReal) (ix2 k q) := by
  obtain ⟨-, -, -, -, -, -, e6, e7, -⟩ := idx_facts t
  show V m c main_v7 (((cfg0.win 3).blk t).view.emb (ix2 k q)) = V m c main_v7 (ix2 k q)
  refine congrArg (V m c main_v7) (funext fun a => Fin.ext ?_)
  match a with
  | ⟨0, _⟩ => show win0_3.index t (0 : Fin 2) * 192 + 1 * k.val = k.val; rw [e6]; omega
  | ⟨1, _⟩ => show win0_3.index t (1 : Fin 2) * 1920 + 1 * q.val = q.val; rw [e7]; omega

/-- Entry (p, q) of point t's output block sits at (256 t + p, q) of the output array. -/
theorem out_emb (t : Fin cfg0.N) (p : Fin 256) (q : Fin 1920) :
    ((cfg0.win 4).blk t).view.emb (ix2 p q) = (ix2 (row t p) q : S8192x1920.Idx) := by
  obtain ⟨-, -, -, -, -, -, -, -, e8, e9⟩ := idx_facts t
  refine funext fun a => Fin.ext ?_
  match a with
  | ⟨0, _⟩ => show win0_4.index t (0 : Fin 2) * 256 + 1 * p.val = 256 * t.val + p.val; rw [e8]; omega
  | ⟨1, _⟩ => show win0_4.index t (1 : Fin 2) * 1920 + 1 * q.val = q.val; rw [e9]; omega

/-- WHAT POINT t WRITES BACK is its block of `regionOut` of the four arrays as the region finds them. -/
theorem flushed_eq (c : Dev nD) (t : Fin cfg0.N) :
    (dats m 0 c).flushed 4 t = ((cfg0.win 4).blk t).view.read (Elt Ideal)
      (regionOut (V m c main_v0) (V m c main_v1) (V m c main_v6) (V m c main_v7)) := by
  show (cfg0.win 4).cut (grid0.coords t) ((dats m 0 c).after 4 t) = _
  rw [after0_4]
  unfold out0_4
  rw [View.canon_unit_zero zeros]
  simp only [View.ld_unit_zero (S := S256x4096) zeros, View.ld_unit_zero (S := S256x192) zeros,
    View.ld_unit_zero (S := S4096x1920) zeros, View.ld_unit_zero (S := S192x1920) zeros]
  funext j
  obtain ⟨p, q, rfl⟩ : ∃ (p : Fin 256) (q : Fin 1920), j = ix2 p q := ⟨j 0, j 1, eq_ix2 j⟩
  show k0_pay1 (F := Ideal) (iblk m c 0 t) (iblk m c 1 t) (iblk m c 2 t) (iblk m c 3 t) (ix2 p q)
    = regionOut (V m c main_v0) (V m c main_v1) (V m c main_v6) (V m c main_v7) (((cfg0.win 4).blk t).view.emb (ix2 p q))
  rw [out_emb t p q]
  refine (Body.stored_apply (iblk m c 0 t) (iblk m c 1 t) (iblk m c 2 t) (iblk m c 3 t) p q).trans ?_
  unfold regionOut
  refine congrArg₂ (· + ·) (Finset.sum_congr rfl fun k _ => ?_) (Finset.sum_congr rfl fun k _ => ?_)
  · exact congrArg₂ (· * ·) (blk0_apply m c t p k) (blk2_apply m c t k q)
  · exact congrArg₂ (· * ·) (blk1_apply m c t p k) (blk3_apply m c t k q)

/-- An index of the output array is in point t's block iff each coordinate is in the block's range on its axis. -/
theorem mem_blk (t : Fin cfg0.N) (i : S8192x1920.Idx) :
    i ∈ ((cfg0.win 4).blk t).view.set ↔ ∀ a : Fin 2, win0_4.index t a * S256x1920.size a ≤ (i a).val ∧ (i a).val < win0_4.index t a * S256x1920.size a + S256x1920.size a := by
  show i ∈ ((View.whole main_v8).slice (win0_4.rect t)).set ↔ _
  rw [View.set_slice_whole, Rect.mem_set_unit]
  exact Iff.rfl

/-- Row r is in the block of point r / 256: the blocks cover the array. -/
theorem cover (i : S8192x1920.Idx) : ∃ t : Fin cfg0.N, (cfg0.win 4).flush t = true ∧ i ∈ ((cfg0.win 4).blk t).view.set := by
  have h0 : (i 0).val < 8192 := (i 0).isLt
  have h1 : (i 1).val < 1920 := (i 1).isLt
  have ht : (i 0).val / 256 < cfg0.N := by rw [show cfg0.N = 32 from N_0]; omega
  refine ⟨⟨(i 0).val / 256, ht⟩, flush0_4 _, ?_⟩
  rw [mem_blk]
  obtain ⟨-, -, -, -, -, -, -, -, e8, e9⟩ := idx_facts ⟨(i 0).val / 256, ht⟩
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    rw [e8]; show (i 0).val / 256 * 256 ≤ (i 0).val ∧ (i 0).val < (i 0).val / 256 * 256 + 256; omega
  | ⟨1, _⟩ =>
    show win0_4.index ⟨(i 0).val / 256, ht⟩ (1 : Fin 2) * 1920 ≤ (i 1).val ∧ (i 1).val < win0_4.index ⟨(i 0).val / 256, ht⟩ (1 : Fin 2) * 1920 + 1920
    rw [e9]; omega

/-- THE OUTPUT ARRAY after the run is `regionOut` of the four arrays the region read. -/
theorem final (c : Dev nD) : (dats m 0 c).arrAt 4 cfg0.N
    = regionOut (V m c main_v0) (V m c main_v1) (V m c main_v6) (V m c main_v7) :=
  (dats m 0 c).arrAt_eq_of_cover 4 _ (fun t _ => flushed_eq m c t) cover

end Cert.KernelIdeal.Blocks

end
-- ==== Proof.Entry.lean ====
/-
  The four arrays the region reads, as it finds them.  Before the region the host flattens each input's slabs into rows
  (a reshape), and cuts the matrix into its upper 4096 rows and its lower 192 rows, changes their float format and pads
  each with 62 columns on the right.  So the first two arrays are the flattened inputs, and columns 0 … 1857 of the last
  two are the corresponding rows of the matrix (a change of format is the identity on extended reals; the padding
  columns are never read back: the program's last operation drops them).
-/
import proofs.«100245_j91104846283204_2_alg».proof.Proof.Gen.KernelIdeal.Frame
import proofs.«100245_j91104846283204_2_alg».proof.Proof.Spec
import Idealize.ShloMosaic.Lib.KernelVsHost
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.ValueIdx
open Idealize.ShloMosaic.StableHlo
open Cert.SplitDot

/-! ## The padded parts of the matrix, read inside the unpadded columns -/

/-- Column `q < 1858` of the padded upper part is that column of the matrix's rows 0 … 4095. -/
theorem paddedUpper_apply (w : FVec Ideal S4288x1858 .f32) (z : FVec Ideal S_ .bf16) (k : Fin 4096) (q : Fin 1858) :
    pad S4096x1920 ![0, 0] ![0, 62] ![0, 0] (truncf .bf16 (extractStridedSlice S4096x1858 ![0, 0] w slices_S4288x1858_S4096x1858_0_0) bitsLt_bf16_f32)
        z pads_S4096x1858_S4096x1920_000_0620 h_S_ (ix2 k (⟨q.val, by omega⟩ : Fin 1920))
      = w (ix2 (upper k) q) := by
  refine (pad_apply_of_inside _ _ _ _ z pads_S4096x1858_S4096x1920_000_0620 h_S_ (ix2 k (⟨q.val, by omega⟩ : Fin 1920)) (ix2 k q) (fun a => ?_)).trans ?_
  · match a with
    | ⟨0, _⟩ => show k.val = 0 + k.val * (0 + 1); omega
    | ⟨1, _⟩ => show q.val = 0 + q.val * (0 + 1); omega
  · refine (truncf_apply (φ := .f32) (ψ := .bf16) (extractStridedSlice S4096x1858 ![0, 0] w slices_S4288x1858_S4096x1858_0_0) bitsLt_bf16_f32 (ix2 k q)).trans (extractStridedSlice_apply _ w slices_S4288x1858_S4096x1858_0_0 (ix2 k q) (ix2 (upper k) q) (fun a => ?_))
    match a with
    | ⟨0, _⟩ => show k.val = 0 + k.val; omega
    | ⟨1, _⟩ => show q.val = 0 + q.val; omega

/-- Column `q < 1858` of the padded lower part is that column of the matrix's rows 4096 … 4287. -/
theorem paddedLower_apply (w : FVec Ideal S4288x1858 .f32) (z : FVec Ideal S_ .bf16) (k : Fin 192) (q : Fin 1858) :
    pad S192x1920 ![0, 0] ![0, 62] ![0, 0] (truncf .bf16 (extractStridedSlice S192x1858 ![4096, 0] w slices_S4288x1858_S192x1858_4096_0) bitsLt_bf16_f32)
        z pads_S192x1858_S192x1920_000_0620 h_S_ (ix2 k (⟨q.val, by omega⟩ : Fin 1920))
      = w (ix2 (lower k) q) := by
  refine (pad_apply_of_inside _ _ _ _ z pads_S192x1858_S192x1920_000_0620 h_S_ (ix2 k (⟨q.val, by omega⟩ : Fin 1920)) (ix2 k q) (fun a => ?_)).trans ?_
  · match a with
    | ⟨0, _⟩ => show k.val = 0 + k.val * (0 + 1); omega
    | ⟨1, _⟩ => show q.val = 0 + q.val * (0 + 1); omega
  · refine (truncf_apply (φ := .f32) (ψ := .bf16) (extractStridedSlice S192x1858 ![4096, 0] w slices_S4288x1858_S192x1858_4096_0) bitsLt_bf16_f32 (ix2 k q)).trans (extractStridedSlice_apply _ w slices_S4288x1858_S192x1858_4096_0 (ix2 k q) (ix2 (lower k) q) (fun a => ?_))
    match a with
    | ⟨0, _⟩ => show 4096 + k.val = 4096 + k.val; rfl
    | ⟨1, _⟩ => show q.val = 0 + q.val; omega

/-! ## The arrays at the region's entry -/

variable (m : (ℓ : Loc nD τ sig) → Buf (Elt Ideal) ℓ)

/-- The first array is the first input flattened. -/
theorem entry_v0 (c : Dev nD) : (V m c main_v0 : S8192x4096.Idx → EReal)
    = shapeCast S8192x4096 (m ((c : Thread nD τ).loc main_arg0)) shapeCasts_S8192x64x64_S8192x4096 := by
  dsimp only [V, V0]
  simp only [hostOps0, hostOps0_1, hostOps0_2, hostOps0_3, List.flatten_cons, List.flatten_nil, List.append_nil, List.cons_append, List.nil_append]
  after_results
  rfl

/-- The second array is the second input flattened. -/
theorem entry_v1 (c : Dev nD) : (V m c main_v1 : S8192x192.Idx → EReal)
    = shapeCast S8192x192 (m ((c : Thread nD τ).loc main_arg1)) shapeCasts_S8192x8x24_S8192x192 := by
  dsimp only [V, V0]
  simp only [hostOps0, hostOps0_1, hostOps0_2, hostOps0_3, List.flatten_cons, List.flatten_nil, List.append_nil, List.cons_append, List.nil_append]
  after_results
  rfl

/-- The third array is the matrix's upper part, padded (with some scalar `z`). -/
theorem entry_v6 (c : Dev nD) : ∃ z : FVec Ideal S_ .bf16, (V m c main_v6 : S4096x1920.Idx → EReal)
    = pad S4096x1920 ![0, 0] ![0, 62] ![0, 0] (truncf .bf16 (extractStridedSlice S4096x1858 ![0, 0] (m ((c : Thread nD τ).loc main_arg2)) slices_S4288x1858_S4096x1858_0_0) bitsLt_bf16_f32)
        z pads_S4096x1858_S4096x1920_000_0620 h_S_ := by
  refine ⟨sitofp .bf16 (constantI S_ 32 0#32), ?_⟩
  dsimp only [V, V0]
  simp only [hostOps0, hostOps0_1, hostOps0_2, hostOps0_3, List.flatten_cons, List.flatten_nil, List.append_nil, List.cons_append, List.nil_append]
  after_results
  rfl

/-- The fourth array is the matrix's lower part, padded (with some scalar `z`). -/
theorem entry_v7 (c : Dev nD) : ∃ z : FVec Ideal S_ .bf16, (V m c main_v7 : S192x1920.Idx → EReal)
    = pad S192x1920 ![0, 0] ![0, 62] ![0, 0] (truncf .bf16 (extractStridedSlice S192x1858 ![4096, 0] (m ((c : Thread nD τ).loc main_arg2)) slices_S4288x1858_S192x1858_4096_0) bitsLt_bf16_f32)
        z pads_S192x1858_S192x1920_000_0620 h_S_ := by
  refine ⟨sitofp .bf16 (constantI S_ 32 0#32), ?_⟩
  dsimp only [V, V0]
  simp only [hostOps0, hostOps0_1, hostOps0_2, hostOps0_3, List.flatten_cons, List.flatten_nil, List.append_nil, List.cons_append, List.nil_append]
  after_results
  rfl

/-- Column `q < 1858` of the third array is that column of the matrix's upper rows. -/
theorem entry_v6_apply (c : Dev nD) (k : Fin 4096) (q : Fin 1858) :
    (V m c main_v6 : S4096x1920.Idx → EReal) (ix2 k (⟨q.val, by omega⟩ : Fin 1920)) = (m ((c : Thread nD τ).loc main_arg2) : S4288x1858.Idx → EReal) (ix2 (upper k) q) := by
  obtain ⟨z, hz⟩ := entry_v6 m c
  rw [hz]
  exact paddedUpper_apply _ z k q

/-- Column `q < 1858` of the fourth array is that column of the matrix's lower rows. -/
theorem entry_v7_apply (c : Dev nD) (k : Fin 192) (q : Fin 1858) :
    (V m c main_v7 : S192x1920.Idx → EReal) (ix2 k (⟨q.val, by omega⟩ : Fin 1920)) = (m ((c : Thread nD τ).loc main_arg2) : S4288x1858.Idx → EReal) (ix2 (lower k) q) := by
  obtain ⟨z, hz⟩ := entry_v7 m c
  rw [hz]
  exact paddedLower_apply _ z k q

end Cert.KernelIdeal.Entry

end
-- ==== Proof.Whole.lean ====
/-
  The kernel program's result.  After the region the host keeps columns 0 … 1857 of the region's 8192 × 1920 output.
  On those columns the two padded matrices are the matrix's upper and lower rows, and the first two arrays are the
  flattened inputs, so entry (r, j) of the result is the split contraction of the specification.
-/
import proofs.«100245_j91104846283204_2_alg».proof.Proof.Gen.KernelIdeal.Frame
import proofs.«100245_j91104846283204_2_alg».proof.Proof.Blocks
import proofs.«100245_j91104846283204_2_alg».proof.Proof.Entry
import proofs.«100245_j91104846283204_2_alg».proof.Proof.Spec
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.StableHlo
open Cert.SplitDot Cert.KernelIdeal.Blocks

variable (m : (ℓ : Loc nD τ sig) → Buf (Elt Ideal) ℓ) (ρ : Dev nD → PrngReg)

/-- The region's output array, as the lines after the region find it. -/
theorem region_array (c : Dev nD) :
    Pipeline.withArrays (cfgs 0).spec c (V0 m c) (fun w => (dats m 0 c).arrAt w (cfgs 0).N) (Proc.devRef .tc main_v8)
      = regionOut (V m c main_v0) (V m c main_v1) (V m c main_v6) (V m c main_v7) :=
  (Pipeline.withArrays_arr spec0 launch0.win.arr_inj c _ _ 4).trans (Blocks.final m c)

/-- Entry (r, j), j < 1858, of the region's output is the specification's entry of the flattened inputs and the matrix. -/
theorem regionOut_apply (c : Dev nD) (r : Fin 8192) (j : Fin 1858) :
    regionOut (V m c main_v0) (V m c main_v1) (V m c main_v6) (V m c main_v7) (ix2 r (⟨j.val, by omega⟩ : Fin 1920))
      = entry (shapeCast S8192x4096 (m ((c.tc : Thread nD τ).loc main_arg0)) shapeCasts_S8192x64x64_S8192x4096)
          (shapeCast S8192x192 (m ((c.tc : Thread nD τ).loc main_arg1)) shapeCasts_S8192x8x24_S8192x192)
          (m ((c.tc : Thread nD τ).loc main_arg2)) r j := by
  unfold regionOut entry
  rw [Entry.entry_v0 m c, Entry.entry_v1 m c]
  refine congrArg₂ (· + ·) (Finset.sum_congr rfl fun k _ => ?_) (Finset.sum_congr rfl fun k _ => ?_)
  · exact congrArg₂ (· * ·) rfl (Entry.entry_v6_apply m c k j)
  · exact congrArg₂ (· * ·) rfl (Entry.entry_v7_apply m c k j)

/-- THE RESULT ARRAY after the lines that follow the region. -/
theorem result_eq (c : Dev nD) :
    Pipeline.afterTail₀ cfgs (dats m) 0 (V0 m) [hostOps1] c main_v9
      = result (shapeCast S8192x4096 (m ((c.tc : Thread nD τ).loc main_arg0)) shapeCasts_S8192x64x64_S8192x4096)
          (shapeCast S8192x192 (m ((c.tc : Thread nD τ).loc main_arg1)) shapeCasts_S8192x8x24_S8192x192)
          (m ((c.tc : Thread nD τ).loc main_arg2)) := by
  unfold Pipeline.afterTail₀
  show StableHlo.after hostOps1 _ (Proc.devRef .tc main_v9) = _
  after_results
  rw [region_array m c]
  funext i
  obtain ⟨r, j, rfl⟩ : ∃ (r : Fin 8192) (j : Fin 1858), i = ix2 r j := ⟨i 0, i 1, eq_ix2 i⟩
  refine (extractStridedSlice_apply _ _ slices_S8192x1920_S8192x1858_0_0 (ix2 r j) (ix2 r (⟨j.val, by omega⟩ : Fin 1920)) (fun a => ?_)).trans
    (regionOut_apply m c r j)
  match a with
  | ⟨0, _⟩ => show r.val = 0 + r.val; omega
  | ⟨1, _⟩ => show j.val = 0 + j.val; omega

/-- The run, read: every weakly fair execution ends with the result array at the specification of the flattened
    inputs and the matrix, the arguments unchanged. -/
theorem run : θ_run defs (onTc (τ := τ) (main (F := Ideal))) ⟨m, fun _ => 0, ρ⟩ fun r => ∀ c : Dev nD,
      r.2.mem ((c.tc : Thread nD τ).loc main_v9)
        = result (shapeCast S8192x4096 (m ((c.tc : Thread nD τ).loc main_arg0)) shapeCasts_S8192x64x64_S8192x4096)
            (shapeCast S8192x192 (m ((c.tc : Thread nD τ).loc main_arg1)) shapeCasts_S8192x8x24_S8192x192)
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v9 (Pipeline.mem_restRefs_of main_v9 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Whole

end
-- ==== Proof.lean ====
/-
  The claim: a kernel that multiplies the two flattened inputs, in blocks of 256 rows, by the upper 4096 and the lower
  192 rows of a 4288 × 1858 matrix (padded to 1920 columns, the padding dropped at the end) and adds the two products,
  against a reference that joins the flattened inputs side by side and multiplies once by the whole matrix.

  On the extended reals both results are, at entry (r, j),
      Σ_{k < 4096} a[r, k] · w[k, j]  +  Σ_{k < 192} b[r, k] · w[4096 + k, j],
  `a` and `b` the flattened inputs and `w` the matrix: the kernel's by reading each block's stored value at an index and
  covering the output by the blocks, the reference's by cutting its one sum over 4288 rows at row 4096.  Only
  commutativity and associativity of addition are used, so the finiteness precondition is never opened.  The idealized
  kernel is the kernel's own text read at the extended reals, so nothing is owed for that step.
-/
import proofs.«100245_j91104846283204_2_alg».proof.Defs
import proofs.«100245_j91104846283204_2_alg».proof.Proof.Gen.Kernel
import proofs.«100245_j91104846283204_2_alg».proof.Proof.Gen.Kernel.Frame
import proofs.«100245_j91104846283204_2_alg».proof.Proof.Gen.KernelIdeal
import proofs.«100245_j91104846283204_2_alg».proof.Proof.Gen.KernelIdeal.Frame
import proofs.«100245_j91104846283204_2_alg».proof.Proof.Gen.ReferenceIdeal
import proofs.«100245_j91104846283204_2_alg».proof.Proof.Gen.Pre_finite_inputs
import proofs.«100245_j91104846283204_2_alg».proof.Proof.Gen.ReferenceIdeal.Run
import proofs.«100245_j91104846283204_2_alg».proof.Proof.Gen.ReferenceIdeal.Read
import proofs.«100245_j91104846283204_2_alg».proof.Proof.RefValue
import proofs.«100245_j91104846283204_2_alg».proof.Proof.Whole

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the arguments both programs end with the split contraction of the flattened inputs
    with the matrix in their result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
